-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x256 : Shape := ⟨3, ![256, 512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S256x512x256 : S_.BroadcastsInDim S256x512x256 (![] : Fin 0 → Fin S256x512x256.rank)
  reducesTo_S256x512x256_S_d0_1_2 : S256x512x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S256x512x256 .f32) (main_arg1 : IVec S256 32) (main_arg2 : FVec F S256x256 .f32) (main_arg3 : FVec F S256 .f32) (main_arg4 : FVec F S256x1 .f32) (main_arg5 : FVec F S1 .f32) : IVec S_ 1 :=
  let main_v0 : FVec F S256x512x256 .f32 := Host.absf main_arg0
  let main_cst : FVec F S_ .f32 := constant S_ .f32 0x7F800000#32
  let main_v1 : FVec F S256x512x256 .f32 := broadcastInDim S256x512x256 ![] bcast_S_S256x512x256 main_cst
  let main_v2 : IVec S256x512x256 1 := cmpf .olt main_v0 main_v1
  let main_c : IVec S_ 1 := constantI S_ 1 1#1
  let main_v3 : IVec S_ 1 := (fun x v => Host.reduce IntOp.andi x v reducesTo_S256x512x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_v13 main_v16
-- ==== Kernel.lean ====
abbrev S256x512x256 : Shape := ⟨3, ![256, 512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S512 : Shape := ⟨1, ![512]⟩
abbrev S1x512 : Shape := ⟨2, ![1, 512]⟩
abbrev S256x512 : Shape := ⟨2, ![256, 512]⟩
abbrev S32x128x256 : Shape := ⟨3, ![32, 128, 256]⟩
abbrev S32x128 : Shape := ⟨2, ![32, 128]⟩
abbrev S32x256 : Shape := ⟨2, ![32, 256]⟩
abbrev S4096x256 : Shape := ⟨2, ![4096, 256]⟩
abbrev S1x1x256 : Shape := ⟨3, ![1, 1, 256]⟩
abbrev S32x128x1 : Shape := ⟨3, ![32, 128, 1]⟩
abbrev S1x1 : Shape := ⟨2, ![1, 1]⟩

abbrev nBuf : Space → Nat
  | .hbm => 23
  | .vmem => 9
  | .smem => 0
  | _ => 0

abbrev bufTy : (tb : Table) → Fin (tcTables nBuf tb) → BufTy
  | .hbm, ⟨0, _⟩ => ⟨S256x512x256, .f32⟩
  | .hbm, ⟨1, _⟩ => ⟨S256, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S512, .i32⟩
  | .hbm, ⟨7, _⟩ => ⟨S1x512, .i32⟩
  | .hbm, ⟨8, _⟩ => ⟨S256x1, .i32⟩
  | .hbm, ⟨9, _⟩ => ⟨S256x512, .i32⟩
  | .hbm, ⟨10, _⟩ => ⟨S256x512, .i32⟩
  | .hbm, ⟨11, _⟩ => ⟨S256x512, .i1⟩
  | .hbm, ⟨12, _⟩ => ⟨S256x512, .f32⟩
  | .hbm, ⟨13, _⟩ => ⟨S256x256, .bf16⟩
  | .hbm, ⟨14, _⟩ => ⟨S256x256, .f32⟩
  | .hbm, ⟨15, _⟩ => ⟨S256x1, .i32⟩
  | .hbm, ⟨16, _⟩ => ⟨S256x1, .f32⟩
  | .hbm, ⟨17, _⟩ => ⟨S256x256, .f32⟩
  | .hbm, ⟨18, _⟩ => ⟨S256x256, .f32⟩
  | .hbm, ⟨19, _⟩ => ⟨S256x1, .f32⟩
  | .hbm, ⟨20, _⟩ => ⟨S1x1, .f32⟩
  | .hbm, ⟨21, _⟩ => ⟨S256x1, .f32⟩
  | .hbm, ⟨22, _⟩ => ⟨S256x1, .f32⟩
  | .local _ .vmem, ⟨0, _⟩ => ⟨S32x128x256, .f32⟩
  | .local _ .vmem, ⟨1, _⟩ => ⟨S32x128x256, .f32⟩
  | .local _ .vmem, ⟨2, _⟩ => ⟨S32x128, .f32⟩
  | .local _ .vmem, ⟨3, _⟩ => ⟨S32x128, .f32⟩
  | .local _ .vmem, ⟨4, _⟩ => ⟨S256x256, .bf16⟩
  | .local _ .vmem, ⟨5, _⟩ => ⟨S256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | _, _ => ⟨S256x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S512_S1x512_1 : S512.BroadcastsInDim S1x512 (![1] : Fin 1 → Fin S1x512.rank)
  bcast_S256_S256x1_0 : S256.BroadcastsInDim S256x1 (![0] : Fin 1 → Fin S256x1.rank)
  bcast_S1x512_S256x512_0_1 : S1x512.BroadcastsInDim S256x512 (![0, 1] : Fin 2 → Fin S256x512.rank)
  bcast_S256x1_S256x512_0_1 : S256x1.BroadcastsInDim S256x512 (![0, 1] : Fin 2 → Fin S256x512.rank)
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x128x256_S32x128x256_0_0_0 : ∀ a, (![0, 0, 0] : Fin 3 → Nat) a + S32x128x256.size a ≤ S32x128x256.size a
  h_S32x128x256 : 0 < S32x128x256.numel
  shapeCasts_S32x128x256_S4096x256 : S32x128x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S32x128x256 : S4096x256.ShapeCasts S32x128x256
  inb_S256_S256_0 : ∀ a, (![0] : Fin 1 → Nat) a + S256.size a ≤ S256.size a
  h_S256 : 0 < S256.numel
  shapeCasts_S256_S1x1x256 : S256.ShapeCasts S1x1x256
  broadcasts_S1x1x256_S32x128x256 : S1x1x256.Broadcasts S32x128x256
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x128x1 : S32x128.ShapeCasts S32x128x1
  broadcasts_S32x128x1_S32x128x256 : S32x128x1.Broadcasts S32x128x256
  reduces_S32x128x256_S32x256 : S32x128x256.Reduces [1] S32x256
  bcast_S256x1_S256x256_0_1 : S256x1.BroadcastsInDim S256x256 (![0, 1] : Fin 2 → Fin S256x256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S4096x256_S256x256_S4096x256_1_0_0_1_n_n_wf : DotDims.WF S4096x256 S256x256 S4096x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S256x512x256.size a
  hwx0_0 : ∀ i : grid0.Coords, EltTy.bits .f32 = 32 ∨ (Rect.block (s := S256x512x256) S32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S256x512.size a
  hwx0_1 : ∀ i : grid0.Coords, EltTy.bits .f32 = 32 ∨ (Rect.block (s := S256x512) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S256x256.size a
  hwx0_4 : ∀ i : grid0.Coords, EltTy.bits .f32 = 32 ∨ (Rect.block (s := S256x256) S32x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x512x256 : Shape := ⟨3, ![256, 512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x1x256 : Shape := ⟨3, ![1, 1, 256]⟩
abbrev S_ : Shape := ⟨0, ![]⟩
abbrev S512 : Shape := ⟨1, ![512]⟩
abbrev S1x512 : Shape := ⟨2, ![1, 512]⟩
abbrev S256x512 : Shape := ⟨2, ![256, 512]⟩
abbrev S256x512x1 : Shape := ⟨3, ![256, 512, 1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S256x512x256, .f32⟩
  | .hbm, ⟨1, _⟩ => ⟨S256, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S256x512x256, .f32⟩
  | .hbm, ⟨7, _⟩ => ⟨S1x1x256, .f32⟩
  | .hbm, ⟨8, _⟩ => ⟨S256x512x256, .f32⟩
  | .hbm, ⟨9, _⟩ => ⟨S256x512x256, .f32⟩
  | .hbm, ⟨10, _⟩ => ⟨S_, .f32⟩
  | .hbm, ⟨11, _⟩ => ⟨S256x512x256, .f32⟩
  | .hbm, ⟨12, _⟩ => ⟨S256x512x256, .f32⟩
  | .hbm, ⟨13, _⟩ => ⟨S512, .i32⟩
  | .hbm, ⟨14, _⟩ => ⟨S1x512, .i32⟩
  | .hbm, ⟨15, _⟩ => ⟨S256x1, .i32⟩
  | .hbm, ⟨16, _⟩ => ⟨S256x512, .i32⟩
  | .hbm, ⟨17, _⟩ => ⟨S256x512, .i32⟩
  | .hbm, ⟨18, _⟩ => ⟨S256x512, .i1⟩
  | .hbm, ⟨19, _⟩ => ⟨S256x512x1, .i1⟩
  | .hbm, ⟨20, _⟩ => ⟨S256x512x1, .f32⟩
  | .hbm, ⟨21, _⟩ => ⟨S256x512x256, .f32⟩
  | .hbm, ⟨22, _⟩ => ⟨S256x512x256, .f32⟩
  | .hbm, ⟨23, _⟩ => ⟨S_, .f32⟩
  | .hbm, ⟨24, _⟩ => ⟨S256x256, .f32⟩
  | .hbm, ⟨25, _⟩ => ⟨S256x1, .i32⟩
  | .hbm, ⟨26, _⟩ => ⟨S256x1, .f32⟩
  | .hbm, ⟨27, _⟩ => ⟨S256x256, .f32⟩
  | .hbm, ⟨28, _⟩ => ⟨S256x256, .f32⟩
  | .hbm, ⟨29, _⟩ => ⟨S256x1, .f32⟩
  | .hbm, ⟨30, _⟩ => ⟨S1x1, .f32⟩
  | .hbm, ⟨31, _⟩ => ⟨S256x1, .f32⟩
  | .hbm, ⟨32, _⟩ => ⟨S256x1, .f32⟩
  | _, _ => ⟨S256x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S256x512x256_0_1_2 : S1x1x256.BroadcastsInDim S256x512x256 (![0, 1, 2] : Fin 3 → Fin S256x512x256.rank)
  bcast_S_S256x512x256 : S_.BroadcastsInDim S256x512x256 (![] : Fin 0 → Fin S256x512x256.rank)
  bcast_S512_S1x512_1 : S512.BroadcastsInDim S1x512 (![1] : Fin 1 → Fin S1x512.rank)
  bcast_S256_S256x1_0 : S256.BroadcastsInDim S256x1 (![0] : Fin 1 → Fin S256x1.rank)
  bcast_S1x512_S256x512_0_1 : S1x512.BroadcastsInDim S256x512 (![0, 1] : Fin 2 → Fin S256x512.rank)
  bcast_S256x1_S256x512_0_1 : S256x1.BroadcastsInDim S256x512 (![0, 1] : Fin 2 → Fin S256x512.rank)
  bcast_S256x512_S256x512x1_0_1 : S256x512.BroadcastsInDim S256x512x1 (![0, 1] : Fin 2 → Fin S256x512x1.rank)
  bcast_S256x512x1_S256x512x256_0_1_2 : S256x512x1.BroadcastsInDim S256x512x256 (![0, 1, 2] : Fin 3 → Fin S256x512x256.rank)
  reducesTo_S256x512x256_S256x256_d1 : S256x512x256.ReducesTo [1] S256x256
  h_S_ : 0 < S_.numel
  bcast_S256x1_S256x256_0_1 : S256x1.BroadcastsInDim S256x256 (![0, 1] : Fin 2 → Fin S256x256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S256x512x256_S256x256_S256x512x256_2_0_01_1_n_n_wf : DotDims.WF S256x512x256 S256x256 S256x512x256 [2] [0] [0, 1] [1] [] []
  dot_S256x256_S256x1_S256x1_1_0_0_1_n_n_wf : DotDims.WF S256x256 S256x1 S256x1 [1] [0] [0] [1] [] []

variable [Facts₀]

def dot_S256x512x256_S256x256_S256x512x256_2_0_01_1_n_n : DotDims S256x512x256 S256x256 S256x512x256 where
  lhsContracting := [2]
  rhsContracting := [0]
  lhsNonContracting := [0, 1]
  rhsNonContracting := [1]
  lhsBatch := []
  rhsBatch := []
  wf := dot_S256x512x256_S256x256_S256x512x256_2_0_01_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.LibBandSum.lean ====
/-
  A sum over 2048 consecutive indices, split into 8 bands of 256.

  A sum over the first m · n naturals is the sum, over the bands j < m, of the sums over the n naturals starting at
  n · j: one band more adds the n indices from n · m on. Both sides of the identity are such sums, a sum over `Fin k` of a
  function of the value being the sum over the first k naturals.
-/
import Mathlib.Data.Fintype.BigOperators
import Mathlib.Algebra.BigOperators.Intervals

namespace Cert.Lib

/-- The first m · n naturals, band by band: m bands of n consecutive indices, band j starting at n · j. -/
theorem sum_range_bands {M : Type*} [AddCommMonoid M] (f : ℕ → M) (n : ℕ) :
    ∀ m : ℕ, ∑ j ∈ Finset.range m, ∑ p ∈ Finset.range n, f (n * j + p) = ∑ q ∈ Finset.range (m * n), f q
  | 0 => by rw [Finset.sum_range_zero, Nat.zero_mul, Finset.sum_range_zero]
  | m + 1 => by
    rw [Finset.sum_range_succ, sum_range_bands f n m, Nat.add_one_mul, Finset.sum_range_add, Nat.mul_comm n m]

/-- Eight bands of 256 make up the first 2048 indices. -/
theorem sum_bands {M : Type*} [AddCommMonoid M] (f : ℕ → M) :
    ∑ j ∈ Finset.range 8, ∑ p : Fin 256, f (256 * j + p.val) = ∑ q : Fin 2048, f q.val := by
  have h : ∑ q : Fin 2048, f q.val = ∑ q ∈ Finset.range (8 * 256), f q := Fin.sum_univ_eq_sum_range f 2048
  rw [h, ← sum_range_bands f 256 8]
  exact Finset.sum_congr rfl fun j _ => Fin.sum_univ_eq_sum_range (fun p => f (256 * j + p)) 256

end Cert.Lib
-- ==== Proof.PoolSpec.lean ====
/-
  The pooled feature both programs compute, as ONE function of the argument arrays.

  For a bag `r` (of 256), an instance `n` (of 512) and a hidden unit `d` (of 256) the per-instance feature is
  `max (∑ k, x (r, n, k) · w (k, d) + b d, 0)`; an instance counts when its position is below the bag's length, which
  both programs express as the word `n <ₛ len r` turned into the float `0` or `1`; the pooled feature of bag `r` at
  unit `d` is the sum over all 512 instances of feature times that weight. The kernel forms this sum as four partial
  sums over 128 consecutive instances each, added one after the other onto zero; the reference as one sum from zero. On
  the extended reals addition is commutative and associative everywhere (no finiteness is asked), so the two agree:
  `four_bands`.
-/
import Idealize.ShloMosaic.PureOps.Ideal
import Idealize.ShloMosaic.PureOps.Ideal.Laws
import Idealize.ShloMosaic.Lib.ValueIdx
import proofs.«166832_j6536940225208_1_alg».proof.Proof.LibBandSum

noncomputable section

namespace Cert.Pool

open Idealize.ShloMosaic Idealize.ShloMosaic.ValueIdx

/-- The per-instance feature: the affine map of instance `(r, n)`'s row against column `d`, rectified. The zero it is
    compared with stays the printed word. -/
def feat (x : (⟨3, ![256, 512, 256]⟩ : Shape).Idx → EReal) (w : (⟨2, ![256, 256]⟩ : Shape).Idx → EReal)
    (b : (⟨1, ![256]⟩ : Shape).Idx → EReal) (r : Fin 256) (n : Fin 512) (d : Fin 256) : EReal :=
  max ((∑ k : Fin 256, x (ix3 r n k) * w (ix2 k d)) + b (ix1 d)) (Ideal.ofBits .f32 0x00000000#32)

/-- The weight of instance `n` in bag `r`: `1` when `n` is below the bag's length (a signed comparison of 32-bit
    words), else `0`. -/
def weight (len : (⟨1, ![256]⟩ : Shape).Idx → BitVec 32) (r : Fin 256) (n : Fin 512) : EReal :=
  FloatOps.uitofp (F := Ideal) .f32 (IntOp.cmpi .slt (BitVec.ofNat 32 n.val) (len (ix1 r)))

/-- The weights as a [256, 512] array. -/
def weights (len : (⟨1, ![256]⟩ : Shape).Idx → BitVec 32) : (⟨2, ![256, 512]⟩ : Shape).Idx → EReal :=
  fun i => weight len (i 0) (i 1)

/-- The pooled feature: for bag `i 0` and unit `i 1`, the weighted sum of the features of the bag's 512 instances. -/
def pooled (x : (⟨3, ![256, 512, 256]⟩ : Shape).Idx → EReal) (w : (⟨2, ![256, 256]⟩ : Shape).Idx → EReal)
    (b : (⟨1, ![256]⟩ : Shape).Idx → EReal) (wt : (⟨2, ![256, 512]⟩ : Shape).Idx → EReal) :
    (⟨2, ![256, 256]⟩ : Shape).Idx → EReal :=
  fun i => ∑ n : Fin 512, feat x w b (i 0) n (i 1) * wt (ix2 (i 0) n)

/-- Instance position `k`'s weighted feature in bag `r` at unit `d`, as a function of every natural `k` (nothing past
    the 512 instances): the form in which the bands of a sum are counted. -/
def term (x : (⟨3, ![256, 512, 256]⟩ : Shape).Idx → EReal) (w : (⟨2, ![256, 256]⟩ : Shape).Idx → EReal)
    (b : (⟨1, ![256]⟩ : Shape).Idx → EReal) (len : (⟨1, ![256]⟩ : Shape).Idx → BitVec 32) (r : Fin 256) (d : Fin 256)
    (k : ℕ) : EReal :=
  if hk : k < 512 then feat x w b r ⟨k, hk⟩ d * weight len r ⟨k, hk⟩ else 0

/-- A sum over 512 consecutive positions is the sum of its four bands of 128, band `s` starting at `128 · s`. -/
theorem four_bands {M : Type*} [AddCommMonoid M] (f : ℕ → M) :
    ∑ s ∈ Finset.range 4, ∑ n : Fin 128, f (128 * s + n.val) = ∑ q : Fin 512, f q.val := by
  have h : ∑ q : Fin 512, f q.val = ∑ q ∈ Finset.range (4 * 128), f q := Fin.sum_univ_eq_sum_range f 512
  rw [h, ← Cert.Lib.sum_range_bands f 128 4]
  exact Finset.sum_congr rfl fun s _ => Fin.sum_univ_eq_sum_range (fun n => f (128 * s + n)) 128

end Cert.Pool

end
-- ==== Proof.LibTileFlatten.lean ====
/-
  A stack of matrices flattened for a matrix product, and cut back.

  A [a, b, n] stack becomes a [m, n] matrix with m = a·b (what a reshape before a matrix product does) and a [m, n]
  result is cut back into a [a, b, n] stack: a cast keeps the row-major position, so row `r = p·b + q` of the matrix is
  entry (p, q) of the stack. With them, two repeats read at an index: a [a, b, 1] stack repeated along its last axis,
  and a vector [n] given two leading unit axes. Every lemma is generic in the extents and has both indices written by
  their coordinates.
-/
import Idealize.ShloMosaic.Lib.ValueLayout

namespace Cert.Lib

open Idealize.ShloMosaic Idealize.ShloMosaic.ValueIdx

variable {α : Type}

/-- A [a, b, n] stack flattened to a [m, n] matrix (m = a·b) reads, at row `r = p·b + q` and column k, the stack at
    (p, q, k). -/
theorem shapeCast_abn_mn_apply {a b n m : ℕ} (x : (⟨3, ![a, b, n]⟩ : Shape).Idx → α)
    (h : (⟨3, ![a, b, n]⟩ : Shape).ShapeCasts ⟨2, ![m, n]⟩) (p : Fin a) (q : Fin b) (k : Fin n) (r : Fin m)
    (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- A [m, n] matrix (m = a·b) cut into a [a, b, n] stack reads, at (p, q, k), the matrix at row `r = p·b + q`. -/
theorem shapeCast_mn_abn_apply {a b n m : ℕ} (x : (⟨2, ![m, n]⟩ : Shape).Idx → α)
    (h : (⟨2, ![m, n]⟩ : Shape).ShapeCasts ⟨3, ![a, b, n]⟩) (p : Fin a) (q : Fin b) (k : Fin n) (r : Fin m)
    (hr : r.val = p.val * b + q.val) :
    shapeCast ⟨3, ![a, b, n]⟩ x h (ix3 p q k) = x (ix2 r k) :=
  shapeCast_apply x h _ _ (by
    rw [Shape.rowMajor_val_three, Shape.rowMajor_val_two]
    show r.val * n + k.val = (p.val * b + q.val) * n + k.val
    rw [hr])

/-- A [a, b, 1] stack repeated along its last axis to [a, b, n] reads, at (p, q, k), the stack at (p, q, 0). -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [n] given two leading unit axes reads, at (u, v, k), the vector at k. -/
theorem shapeCast_n_11n_apply {n : ℕ} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]
    simp)

end Cert.Lib
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.LibLaneReads.lean ====
/-
  Layout operations on a stack of rows, read at an index given by coordinates.

  A value computed per row `(p, q)` of an `[a, b]` grid against a short table of `n` entries lives in an
  `[a, b, n]` array. Two operands meet there: the table, one vector of `n` entries repeated for every row, and the
  rows' own scalar, one `[a, b]` matrix repeated along the last axis. A vector program makes the first by casting the
  vector to `[1, 1, n]` and broadcasting, and the second by casting the matrix to `[a, b, 1]` and broadcasting; a host
  program makes both by `broadcast_in_dim`. Read at `(p, q, i)` the first is the table at `i` and the second the
  matrix at `(p, q)`, whichever way they were made. Beside them: a vector and the last axis of an `[a, b, N]` array cut
  from an offset `o`, read at `i`, are the operand at `i + o`; a scalar broadcast anywhere is the scalar; and a
  trailing unit axis added by `broadcast_in_dim` changes nothing.
-/
import Idealize.ShloMosaic.Lib.ValueLayout

namespace Cert.Lib

open Idealize.ShloMosaic Idealize.ShloMosaic.ValueIdx

variable {α : Type}

/-! ## Cuts from an offset -/

/-- A vector cut from `o` reads, at `i`, the operand at `i + o`. -/
theorem slice1_eq {N n : ℕ} (o : ℕ) (v : (⟨1, ![N]⟩ : Shape).Idx → α)
    (h : (⟨1, ![N]⟩ : Shape).Slices ![o] ⟨1, ![n]⟩) (i : Fin n) :
    extractStridedSlice ⟨1, ![n]⟩ ![o] v h (ix1 i)
      = v (ix1 ⟨i.val + o, Nat.lt_of_lt_of_le (Nat.add_lt_add_right i.isLt o) ((Nat.add_comm n o).trans_le (h.2 0))⟩) :=
  extractStridedSlice_apply _ _ _ _ _ (fun ax => by
    match ax with
    | ⟨0, _⟩ => exact Nat.add_comm _ _)

/-- An `[a, b, N]` array cut along its last axis from `o` reads, at `(p, q, i)`, the operand at `(p, q, i + o)`. -/
theorem slice3_last_eq {a b N n : ℕ} (o : ℕ) (X : (⟨3, ![a, b, N]⟩ : Shape).Idx → α)
    (h : (⟨3, ![a, b, N]⟩ : Shape).Slices ![0, 0, o] ⟨3, ![a, b, n]⟩) (p : Fin a) (q : Fin b) (i : Fin n) :
    extractStridedSlice ⟨3, ![a, b, n]⟩ ![0, 0, o] X h (ix3 p q i)
      = X (ix3 p q ⟨i.val + o, Nat.lt_of_lt_of_le (Nat.add_lt_add_right i.isLt o) ((Nat.add_comm n o).trans_le (h.2 2))⟩) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _)

/-! ## A vector program's casts and broadcasts -/

/-- An `[a, b]` matrix cast to the column stack `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector of `n` entries cast to `[1, 1, n]` and broadcast to `[a, b, n]` reads, at `(p, q, i)`, entry `i`. -/
theorem broadcastTo_row_apply {a b n : ℕ} (v : (⟨1, ![n]⟩ : Shape).Idx → α)
    (h1 : (⟨1, ![n]⟩ : Shape).ShapeCasts ⟨3, ![1, 1, n]⟩) (h2 : (⟨3, ![1, 1, n]⟩ : Shape).Broadcasts ⟨3, ![a, b, n]⟩)
    (p : Fin a) (q : Fin b) (i : Fin n) :
    broadcastTo ⟨3, ![a, b, n]⟩ (shapeCast ⟨3, ![1, 1, n]⟩ v h1) h2 (ix3 p q i) = v (ix1 i) := by
  refine (broadcastTo_apply _ h2 (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · exact shapeCast_apply v h1 _ _ (by
      rw [Shape.rowMajor_val_one, Shape.rowMajor_val_three]
      show i.val = (0 * 1 + 0) * n + i.val
      omega)

/-- A column stack `[a, b, 1]` broadcast along its last axis to `[a, b, n]` reads, at `(p, q, i)`, row `(p, q)`'s
    one entry. -/
theorem broadcastTo_col_apply {a b n : ℕ} (x : (⟨3, ![a, b, 1]⟩ : Shape).Idx → α)
    (h : (⟨3, ![a, b, 1]⟩ : Shape).Broadcasts ⟨3, ![a, b, n]⟩) (p : Fin a) (q : Fin b) (i : Fin n) :
    broadcastTo ⟨3, ![a, b, n]⟩ x h (ix3 p q i) = x (ix3 p q (0 : Fin 1)) := by
  refine broadcastTo_apply x h (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A host program's `broadcast_in_dim`s

The axis map is a variable here, with an equation saying which map it is: a rewrite then matches the operation
whatever the spelling of its map, and the equation is closed on the spot. -/

/-- An `[a, b]` matrix given a trailing unit axis reads, at `(p, q, u)`, the matrix at `(p, q)`. -/
theorem broadcastInDim_ab_ab1_apply {a b : ℕ} (dims : Fin 2 → Fin 3) (x : (⟨2, ![a, b]⟩ : Shape).Idx → α)
    (h : (⟨2, ![a, b]⟩ : Shape).BroadcastsInDim ⟨3, ![a, b, 1]⟩ dims) (p : Fin a) (q : Fin b) (u : Fin 1)
    (hd : dims = ![0, 1]) :
    broadcastInDim ⟨3, ![a, b, 1]⟩ dims h x (ix3 p q u) = x (ix2 p q) := by
  subst hd
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A vector of `n` entries placed on the last axis of `[1, 1, n]` and then broadcast to `[a, b, n]` reads, at
    `(p, q, i)`, entry `i`. -/
theorem broadcastInDim_row_apply {a b n : ℕ} (d1 : Fin 1 → Fin 3) (d2 : Fin 3 → Fin 3) (v : (⟨1, ![n]⟩ : Shape).Idx → α)
    (h1 : (⟨1, ![n]⟩ : Shape).BroadcastsInDim ⟨3, ![1, 1, n]⟩ d1)
    (h2 : (⟨3, ![1, 1, n]⟩ : Shape).BroadcastsInDim ⟨3, ![a, b, n]⟩ d2) (p : Fin a) (q : Fin b) (i : Fin n)
    (hd1 : d1 = ![2]) (hd2 : d2 = ![0, 1, 2]) :
    broadcastInDim ⟨3, ![a, b, n]⟩ d2 h2 (broadcastInDim ⟨3, ![1, 1, n]⟩ d1 h1 v) (ix3 p q i) = v (ix1 i) := by
  subst hd1 hd2
  refine (broadcastInDim_apply _ h2 _ (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · refine broadcastInDim_apply _ h1 v (ix3 (0 : Fin 1) (0 : Fin 1) i) (ix1 i) fun ax => ?_
    match ax with
    | ⟨0, _⟩ =>
      show i.val = if n = 1 then 0 else i.val
      split
      · have := i.isLt; omega
      · rfl

/-- A column stack `[a, b, 1]` broadcast along its last axis to `[a, b, n]` reads, at `(p, q, i)`, row `(p, q)`'s
    one entry. -/
theorem broadcastInDim_col_apply {a b n : ℕ} (dims : Fin 3 → Fin 3) (x : (⟨3, ![a, b, 1]⟩ : Shape).Idx → α)
    (h : (⟨3, ![a, b, 1]⟩ : Shape).BroadcastsInDim ⟨3, ![a, b, n]⟩ dims) (p : Fin a) (q : Fin b) (i : Fin n)
    (hd : dims = ![0, 1, 2]) :
    broadcastInDim ⟨3, ![a, b, n]⟩ dims h x (ix3 p q i) = x (ix3 p q (0 : Fin 1)) := by
  subst hd
  refine broadcastInDim_apply _ h x (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A scalar broadcast to any shape reads the scalar everywhere. -/
theorem broadcastInDim_scalar_apply {t : Shape} (dims : Fin 0 → Fin t.rank) (x : (⟨0, ![]⟩ : Shape).Idx → α)
    (h : (⟨0, ![]⟩ : Shape).BroadcastsInDim t dims) (j : t.Idx) :
    broadcastInDim t dims h x j = x ix0 :=
  broadcastInDim_apply _ h x j ix0 fun ax => ax.elim0

end Cert.Lib
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibMidAxisSum.lean ====
/-
  A sum over the MIDDLE axis of a stack, read at an index.

  A `[a, b, n]` stack summed over its middle axis gives an `[a, n]` matrix; at the ideal values its entry `(p, q)` is the
  sum over `k < b` of the stack at `(p, k, q)`: the index above `(p, q)` with coordinate `k` inserted on axis 1 is
  `(p, k, q)`. Generic in the three extents and the float format.
-/
import Idealize.ShloMosaic.Lib.ValueIdx
import Idealize.ShloMosaic.PureOps.Ideal.Laws

namespace Cert.Lib

open Idealize.ShloMosaic Idealize.ShloMosaic.ValueIdx

/-- Over the stack's middle axis, the index above `(p, q)` with coordinate `k` inserted is `(p, k, q)`. -/
theorem lift_mid_ix2 {a b n : ℕ} (h : (⟨3, ![a, b, n]⟩ : Shape).Reduces [1] ⟨2, ![a, n]⟩) (p : Fin a) (q : Fin n) (k : Fin b) :
    h.lift (ix2 p q) k = ix3 p k q := by
  funext c
  apply Fin.ext
  match c with
  | ⟨0, _⟩ => rfl
  | ⟨1, _⟩ => rfl
  | ⟨2, _⟩ => rfl

/-- At the ideal values, a sum over the middle axis of an `[a, b, n]` stack, read at `(p, q)`, is the sum over `k` of the
    stack at `(p, k, q)`. -/
theorem midSum_apply {a b n : ℕ} {φ : FTy} (src : FVec Ideal ⟨3, ![a, b, n]⟩ φ) (acc : BitVec φ.bits)
    (h : (⟨3, ![a, b, n]⟩ : Shape).Reduces [1] ⟨2, ![a, n]⟩) (hφ : FKind.Formats φ) (hacc : acc = FKind.add.neutral φ hφ)
    (p : Fin a) (q : Fin n) :
    multiReduction .add [1] ⟨2, ![a, n]⟩ src acc h hφ hacc (ix2 p q) = ∑ k : Fin b, src (ix3 p k q) := by
  refine (Ideal.multiReduction_add_single src acc h hφ hacc (ix2 p q)).trans ?_
  exact Finset.sum_congr rfl fun k _ => congrArg src (lift_mid_ix2 h p q k)

end Cert.Lib
-- ==== Proof.PoolPayload.lean ====
/-
  The kernel body's arithmetic, read at an index at the ideal values.

  At one grid point the body holds a tile `x` of 32 bags × 128 instances × 256 inputs, the tile `msk` of the 32 × 128
  instance weights, the whole weight matrix `w` and bias `b`, and the running sums `acc` (32 bags × 256 units). It
  flattens the tile to 4096 rows, multiplies by `w` into a zero accumulator, cuts the product back into 32 × 128 × 256,
  adds the bias along the last axis, rectifies, scales each instance's row by its weight, sums over the 128 instances
  and adds the result to `acc`. Entry `(p, d)` of what it stores is therefore
  `acc (p, d) + ∑ n < 128, max (∑ k, x (p, n, k) · w (k, d) + b d, 0) · msk (p, n)`
  (`tileSum`); a change of float format is the identity at the ideal values. The block it stores at the first point of
  a bag tile's run is zero everywhere.
-/
import proofs.«166832_j6536940225208_1_alg».proof.Proof.Gen.KernelIdeal.Skeleton
import proofs.«166832_j6536940225208_1_alg».proof.Proof.LibTileFlatten
import proofs.«166832_j6536940225208_1_alg».proof.Proof.LibOuterStack
import proofs.«166832_j6536940225208_1_alg».proof.Proof.LibLaneReads
import proofs.«166832_j6536940225208_1_alg».proof.Proof.LibMatmul2
import proofs.«166832_j6536940225208_1_alg».proof.Proof.LibMidAxisSum
import Idealize.ShloMosaic.Lib.ValueIdx
import Idealize.ShloMosaic.Lib.Pipeline.Value
import Idealize.ShloMosaic.PureOps.Ideal.Laws

noncomputable section

namespace Cert.KernelIdeal.Pool

open Idealize.ShloMosaic Idealize.ShloMosaic.ValueIdx Cert.KernelIdeal
open Cert.KernelIdeal.Facts₀

/-- One tile's contribution to bag `p`'s pooled feature at unit `d`: the weighted sum of the rectified affine
    features of the tile's 128 instances. -/
def tileSum (x : FVec Ideal S32x128x256 .f32) (w : FVec Ideal S256x256 .bf16) (b : FVec Ideal S256 .f32)
    (msk : FVec Ideal S32x128 .f32) (p : Fin 32) (d : Fin 256) : EReal :=
  ∑ n : Fin 128, max ((∑ k : Fin 256, x (ix3 p n k) * w (ix2 k d)) + b (ix1 d)) (Ideal.ofBits .f32 0x00000000#32)
    * msk (ix2 p n)

/-- The product: the tile flattened to 4096 rows times `w` into zero, cut back into the tile's shape, read at
    `(p, n, d)`, is the inner product of instance `(p, n)`'s row with column `d` (row `128 p + n` of the flattened
    tile is instance `(p, n)`). -/
theorem product_apply (x : FVec Ideal S32x128x256 .f32) (w : FVec Ideal S256x256 .bf16) (p : Fin 32) (n : Fin 128)
    (d : Fin 256) :
    shapeCast S32x128x256
        (matmul dot_S4096x256_S256x256_S4096x256_1_0_0_1_n_n none
          (shapeCast S4096x256 (truncf .bf16 x bitsLt_bf16_f32) shapeCasts_S32x128x256_S4096x256)
          (shapeCast S256x256 w shapeCasts_S256x256_S256x256) (constant S4096x256 .f32 0x00000000#32))
        shapeCasts_S4096x256_S32x128x256 (ix3 p n d)
      = ∑ k : Fin 256, x (ix3 p n k) * w (ix2 k d) := by
  have hr : p.val * 128 + n.val < 4096 := by have := p.isLt; have := n.isLt; omega
  refine (Cert.Lib.shapeCast_mn_abn_apply _ shapeCasts_S4096x256_S32x128x256 p n d ⟨p.val * 128 + n.val, hr⟩ rfl).trans ?_
  refine (Cert.Lib.matmul2_zero_apply dot_S4096x256_S256x256_S4096x256_1_0_0_1_n_n_wf _ _ ⟨p.val * 128 + n.val, hr⟩ d).trans ?_
  refine Finset.sum_congr rfl fun k _ => ?_
  refine congrArg₂ (· * ·) ?_ ?_
  · exact Cert.Lib.shapeCast_abn_mn_apply (truncf .bf16 x bitsLt_bf16_f32) shapeCasts_S32x128x256_S4096x256 p n k
      ⟨p.val * 128 + n.val, hr⟩ rfl
  · exact congrFun (shapeCast_self w shapeCasts_S256x256_S256x256) (ix2 k d)

/-- The bias given two leading unit axes and repeated over the tile reads `b d` at `(p, n, d)`. -/
theorem bias_apply (b : FVec Ideal S256 .f32) (p : Fin 32) (n : Fin 128) (d : Fin 256) :
    broadcastTo S32x128x256 (shapeCast S1x1x256 b shapeCasts_S256_S1x1x256) broadcasts_S1x1x256_S32x128x256 (ix3 p n d)
      = b (ix1 d) :=
  (Cert.Lib.broadcastTo_11n_abn_apply _ broadcasts_S1x1x256_S32x128x256 p n d).trans
    (Cert.Lib.shapeCast_n_11n_apply b shapeCasts_S256_S1x1x256 0 0 d)

/-- The weights given a trailing unit axis and repeated along it read `msk (p, n)` at `(p, n, d)`. -/
theorem weight_apply (msk : FVec Ideal S32x128 .f32) (p : Fin 32) (n : Fin 128) (d : Fin 256) :
    broadcastTo S32x128x256
        (shapeCast S32x128x1 (shapeCast S32x128 msk shapeCasts_S32x128_S32x128) shapeCasts_S32x128_S32x128x1)
        broadcasts_S32x128x1_S32x128x256 (ix3 p n d)
      = msk (ix2 p n) :=
  (Cert.Lib.broadcastTo_ab1_abn_apply _ broadcasts_S32x128x1_S32x128x256 p n d).trans
    ((Cert.Lib.shapeCast_ab_ab1_apply _ shapeCasts_S32x128_S32x128x1 p n 0).trans
      (congrFun (shapeCast_self msk shapeCasts_S32x128_S32x128) (ix2 p n)))

/-- What the body stores into the running sums, at `(p, d)`: the sums it found there plus the tile's contribution. -/
theorem pay2_apply (x : FVec Ideal S32x128x256 .f32) (w : FVec Ideal S256x256 .bf16) (b : FVec Ideal S256 .f32)
    (msk : FVec Ideal S32x128 .f32) (acc : FVec Ideal S32x256 .f32) (p : Fin 32) (d : Fin 256) :
    Gen.k0_pay2 (F := Ideal) x w b msk acc (ix2 p d) = acc (ix2 p d) + tileSum x w b msk p d := by
  unfold Gen.k0_pay2
  refine (congrFun (shapeCast_self _ shapeCasts_S32x256_S32x256) (ix2 p d)).trans ?_
  refine congrArg (acc (ix2 p d) + ·) ?_
  refine (Cert.Lib.midSum_apply _ _ reduces_S32x128x256_S32x256 _ _ p d).trans ?_
  refine Finset.sum_congr rfl fun n _ => ?_
  exact congrArg₂ (· * ·)
    (congrArg₂ max (congrArg₂ (· + ·) (product_apply x w p n d) (bias_apply b p n d)) rfl)
    (weight_apply msk p n d)

/-- The block stored at the first point of a run is zero everywhere. -/
theorem pay1_apply (y : S32x256.Idx) : Gen.k0_pay1 (F := Ideal) y = 0 := by
  unfold Gen.k0_pay1
  refine (congrFun (shapeCast_self _ shapeCasts_S32x256_S32x256) y).trans ?_
  exact Ideal.ofBits_zero_f32

end Cert.KernelIdeal.Pool

end
-- ==== Proof.PoolPieces.lean ====
/-
  What each control case of the body leaves behind, as the body's own arithmetic.

  The body has three control cases over a run of four grid points: at the run's first point it stores zero into the
  running sums, reads them back and stores the updated sums; at the two middle points it only updates them; at the last
  point it updates them and copies them into the output block. In every case the running sums end at the update
  (`Gen.k0_pay2`) of the point's input blocks and of what the sums held before — zero (`Gen.k0_pay1`) in the first
  case — and in the last case the output block ends at the same value. Each store covers its whole buffer and each
  load reads a whole buffer, so the stores' read-back is the last payload. Generic in the float values.
-/
import proofs.«166832_j6536940225208_1_alg».proof.Proof.Gen.KernelIdeal.Frame
import Idealize.ShloMosaic.Lib.Pipeline.Value
import Idealize.ShloMosaic.Lib.Tactic

noncomputable section

namespace Cert.KernelIdeal.Pool

open Idealize.ShloMosaic Idealize.ShloMosaic.TcCoe Idealize.SL.Sem Idealize.ShloMosaic.Tactic Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a middle point of a run the running sums end at the update of what they held. -/
theorem sums_B (c : Dev nD) (i : grid0.Coords) (arg2 : Memref sig .tc .vmem S32x128x256 .f32) (harg2 : arg2.IsWhole) (arg3 : Memref sig .tc .vmem S32x128 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x256 .f32) (harg6 : arg6.IsWhole) (arg7 : Memref sig .tc .vmem S32x256 .f32) (harg7 : arg7.IsWhole) (hc0 : ¬cond0_0 i) (hc1 : ¬cond0_1 i)
    (x0 : Vec F S32x128x256 .f32) (x1 : Vec F S32x128 .f32) (x2 : Vec F S256x256 .bf16) (x3 : Vec F S256 .f32) (xs0 : Vec F S32x256 .f32) :
    sout0_B_0 c i arg2 harg2 arg3 harg3 arg4 harg4 arg5 harg5 arg6 harg6 arg7 harg7 hc0 hc1 x0 x1 x2 x3 xs0 = k0_pay2 x0 x2 x3 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg4.read_unread, harg5.read_unread, harg7.read_unread,
    View.ld_unit_zero (S := S32x128x256) hz3, View.ld_unit_zero (S := S32x128) hz2, View.ld_unit_zero (S := S256x256) hz2,
    View.ld_unit_zero (S := S256) hz1, View.ld_unit_zero (S := S32x256) hz2]

/-- At a run's last point the running sums end at the update of what they held. -/
theorem sums_C (c : Dev nD) (i : grid0.Coords) (arg2 : Memref sig .tc .vmem S32x128x256 .f32) (harg2 : arg2.IsWhole) (arg3 : Memref sig .tc .vmem S32x128 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x256 .f32) (harg6 : arg6.IsWhole) (arg7 : Memref sig .tc .vmem S32x256 .f32) (harg7 : arg7.IsWhole) (hc0 : ¬cond0_0 i) (hc1 : cond0_1 i)
    (x0 : Vec F S32x128x256 .f32) (x1 : Vec F S32x128 .f32) (x2 : Vec F S256x256 .bf16) (x3 : Vec F S256 .f32) (xs0 : Vec F S32x256 .f32) :
    sout0_C_0 c i arg2 harg2 arg3 harg3 arg4 harg4 arg5 harg5 arg6 harg6 arg7 harg7 hc0 hc1 x0 x1 x2 x3 xs0 = k0_pay2 x0 x2 x3 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S32x128x256) hz3, View.ld_unit_zero (S := S32x128) hz2, View.ld_unit_zero (S := S256x256) hz2,
    View.ld_unit_zero (S := S256) hz1, View.ld_unit_zero (S := S32x256) hz2]

/-- At a run's last point the output block ends at the same update: the body reads the sums back after their store
    and stores what it read into the output block. -/
theorem out_C (c : Dev nD) (i : grid0.Coords) (arg2 : Memref sig .tc .vmem S32x128x256 .f32) (harg2 : arg2.IsWhole) (arg3 : Memref sig .tc .vmem S32x128 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x256 .f32) (harg6 : arg6.IsWhole) (arg7 : Memref sig .tc .vmem S32x256 .f32) (harg7 : arg7.IsWhole) (hc0 : ¬cond0_0 i) (hc1 : cond0_1 i)
    (x0 : Vec F S32x128x256 .f32) (x1 : Vec F S32x128 .f32) (x2 : Vec F S256x256 .bf16) (x3 : Vec F S256 .f32) (xs0 : Vec F S32x256 .f32) :
    out0_C_4 c i arg2 harg2 arg3 harg3 arg4 harg4 arg5 harg5 arg6 harg6 arg7 harg7 hc0 hc1 x0 x1 x2 x3 xs0 = k0_pay2 x0 x2 x3 x1 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2, View.readCov_unit_zero (S := S32x256) _ hz2]
  simp only [View.readAt_eq_ld, harg2.read_unread, harg3.read_unread, harg4.read_unread, harg5.read_unread, harg7.read_unread,
    View.ld_unit_zero (S := S32x128x256) hz3, View.ld_unit_zero (S := S32x128) hz2, View.ld_unit_zero (S := S256x256) hz2,
    View.ld_unit_zero (S := S256) hz1, View.ld_unit_zero (S := S32x256) hz2]

/-- At a run's first point the running sums, zeroed and read back, end at the update of zero. -/
theorem sums_A (c : Dev nD) (i : grid0.Coords) (arg2 : Memref sig .tc .vmem S32x128x256 .f32) (harg2 : arg2.IsWhole) (arg3 : Memref sig .tc .vmem S32x128 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x256 .f32) (harg6 : arg6.IsWhole) (arg7 : Memref sig .tc .vmem S32x256 .f32) (harg7 : arg7.IsWhole) (hc0 : cond0_0 i) (hc1 : ¬cond0_1 i)
    (x0 : Vec F S32x128x256 .f32) (x1 : Vec F S32x128 .f32) (x2 : Vec F S256x256 .bf16) (x3 : Vec F S256 .f32) :
    sout0_A_0 c i arg2 harg2 arg3 harg3 arg4 harg4 arg5 harg5 arg6 harg6 arg7 harg7 hc0 hc1 x0 x1 x2 x3 = k0_pay2 x0 x2 x3 x1 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S32x256) hz2, View.readCov_unit_zero (S := S32x256) _ hz2]
  simp only [View.readAt_eq_ld, harg2.read_unread, harg3.read_unread, harg4.read_unread, harg5.read_unread,
    View.ld_unit_zero (S := S32x128x256) hz3, View.ld_unit_zero (S := S32x128) hz2, View.ld_unit_zero (S := S256x256) hz2,
    View.ld_unit_zero (S := S256) hz1]

end Cert.KernelIdeal.Pool

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.PoolBlocks.lean ====
/-
  The arrays the region finds, and the blocks its windows cut from them, read at an index.

  The region finds `x` and the bias as launched; the weight matrix after a change of float format, which is the identity
  at the ideal values; and the instance weights `[256, 512]` as the host lines before the region compute them:
  position `n` (an iota along the row) compared, signed, with the bag's length (a column), the word turned into
  `0` or `1`. Grid point `t` is bag tile `t / 4` and instance tile `t % 4`: its block of `x` starts at bag
  `32 (t / 4)` and instance `128 (t % 4)`, its block of the weights likewise, the weight matrix and the bias are whole,
  and its output block starts at bag `32 (t / 4)`.
-/
import proofs.«166832_j6536940225208_1_alg».proof.Proof.Gen.KernelIdeal.Frame
import proofs.«166832_j6536940225208_1_alg».proof.Proof.PoolSpec
import proofs.«166832_j6536940225208_1_alg».proof.Proof.LibHostRowCol
import Idealize.ShloMosaic.Lib.Pipeline.Value
import Idealize.ShloMosaic.Lib.StableHlo.Run
import Idealize.ShloMosaic.Lib.ValueIdx

noncomputable section

namespace Cert.KernelIdeal.Pool

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Where each window's block sits at grid point `t`, decided over the 32 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = t.val / 4 ∧ win0_1.index t (1 : Fin 2) = t.val % 4
    ∧ win0_2.index t (0 : Fin 2) = 0 ∧ win0_2.index t (1 : Fin 2) = 0
    ∧ win0_3.index t (0 : Fin 1) = 0
    ∧ win0_4.index t (0 : Fin 2) = t.val / 4 ∧ win0_4.index t (1 : Fin 2) = 0 :=
  (by decide +kernel : ∀ t : Fin grid0.N, _)

/-- Bag `32 q + p` of tile `q`. -/
abbrev bag (q : ℕ) (hq : q < 8) (p : Fin 32) : Fin 256 := ⟨32 * q + p.val, by have := p.isLt; omega⟩
/-- Instance `128 j + n` of tile `j`. -/
abbrev inst (j : ℕ) (hj : j < 4) (n : Fin 128) : Fin 512 := ⟨128 * j + n.val, by have := n.isLt; omega⟩

theorem div4_lt (t : Fin cfg0.N) : t.val / 4 < 8 := by
  have := lt_of_lt_of_eq t.isLt (show cfg0.N = 32 from N_0); omega
theorem mod4_lt (t : Fin cfg0.N) : t.val % 4 < 4 := Nat.mod_lt _ (by decide)

/-- The block of `x` at point `t`. -/
theorem x_block (c : Dev nD) (t : Fin cfg0.N) (p : Fin 32) (n : Fin 128) (k : Fin 256) :
    iblk m c 0 t (ix3 p n k)
      = m ((c : Thread nD τ).loc main_arg0) (ix3 (bag (t.val / 4) (div4_lt t) p) (inst (t.val % 4) (mod4_lt t) n) k) := by
  rw [← V_main_arg0 m c]
  show V m c main_arg0 (((cfg0.win 0).blk t).view.emb (ix3 p n k)) = V m c main_arg0 _
  refine congrArg (V m c main_arg0) (funext fun a => Fin.ext ?_)
  obtain ⟨h0, h1, h2, -⟩ := idx_facts t
  match a with
  | ⟨0, _⟩ => show win0_0.index t (0 : Fin 3) * 32 + 1 * p.val = 32 * (t.val / 4) + p.val; rw [h0]; omega
  | ⟨1, _⟩ => show win0_0.index t (1 : Fin 3) * 128 + 1 * n.val = 128 * (t.val % 4) + n.val; rw [h1]; omega
  | ⟨2, _⟩ => show win0_0.index t (2 : Fin 3) * 256 + 1 * k.val = k.val; rw [h2]; omega

/-- The block of the bias at any point is the bias. -/
theorem b_block (c : Dev nD) (t : Fin cfg0.N) (d : Fin 256) :
    iblk m c 3 t (ix1 d) = m ((c : Thread nD τ).loc main_arg3) (ix1 d) := by
  rw [← V_main_arg3 m c]
  show V m c main_arg3 (((cfg0.win 3).blk t).view.emb (ix1 d)) = V m c main_arg3 _
  refine congrArg (V m c main_arg3) (funext fun a => Fin.ext ?_)
  obtain ⟨-, -, -, -, -, -, -, h7, -⟩ := idx_facts t
  match a with
  | ⟨0, _⟩ => show win0_3.index t (0 : Fin 1) * 256 + 1 * d.val = d.val; rw [h7]; omega

/-- The weight matrix the region finds is the launched one: a change of float format is the identity. -/
theorem V_w (c : Dev nD) : (V m c main_v7 : S256x256.Idx → EReal) = m ((c : Thread nD τ).loc main_arg2) := by
  show StableHlo.after hostOps0 (fun b => m (c, b)) (Proc.devRef .tc main_v7) = _
  after_results
  rfl

/-- The block of the weight matrix at any point is the launched matrix. -/
theorem w_block (c : Dev nD) (t : Fin cfg0.N) (k : Fin 256) (d : Fin 256) :
    iblk m c 2 t (ix2 k d) = m ((c : Thread nD τ).loc main_arg2) (ix2 k d) := by
  rw [← V_w m c]
  show V m c main_v7 (((cfg0.win 2).blk t).view.emb (ix2 k d)) = V m c main_v7 _
  refine congrArg (V m c main_v7) (funext fun a => Fin.ext ?_)
  obtain ⟨-, -, -, -, -, h5, h6, -⟩ := idx_facts t
  match a with
  | ⟨0, _⟩ => show win0_2.index t (0 : Fin 2) * 256 + 1 * k.val = k.val; rw [h5]; omega
  | ⟨1, _⟩ => show win0_2.index t (1 : Fin 2) * 256 + 1 * d.val = d.val; rw [h6]; omega

/-- The instance weights the region finds, at `(r, n)`: `n` below bag `r`'s length, as `0` or `1`. -/
theorem V_weights (c : Dev nD) (r : Fin 256) (n : Fin 512) :
    (V m c main_v6 : S256x512.Idx → EReal) (ix2 r n) = Cert.Pool.weight (m ((c : Thread nD τ).loc main_arg1)) r n := by
  have e : (V m c main_v6 : S256x512.Idx → EReal)
      = uitofp (F := Ideal) .f32 (cmpi .slt
          (broadcastInDim S256x512 ![0, 1] Facts₀.bcast_S1x512_S256x512_0_1
            (broadcastInDim S1x512 ![1] Facts₀.bcast_S512_S1x512_1 (iotaInDim S512 32 0)))
          (broadcastInDim S256x512 ![0, 1] Facts₀.bcast_S256x1_S256x512_0_1
            (broadcastInDim S256x1 ![0] Facts₀.bcast_S256_S256x1_0 (m ((c : Thread nD τ).loc main_arg1))))) := by
    show StableHlo.after hostOps0 (fun b => m (c, b)) (Proc.devRef .tc main_v6) = _
    after_results
  rw [e]
  show FloatOps.uitofp (F := Ideal) .f32 (IntOp.cmpi .slt _ _) = FloatOps.uitofp (F := Ideal) .f32 (IntOp.cmpi .slt _ _)
  refine congrArg (FloatOps.uitofp (F := Ideal) .f32) (congrArg₂ (IntOp.cmpi .slt) ?_ ?_)
  · exact Cert.Lib.bcast_row_rows_apply (iotaInDim S512 32 0) Facts₀.bcast_S512_S1x512_1 Facts₀.bcast_S1x512_S256x512_0_1 r n
  · exact Cert.Lib.bcast_col_cols_apply (m ((c : Thread nD τ).loc main_arg1)) Facts₀.bcast_S256_S256x1_0
      Facts₀.bcast_S256x1_S256x512_0_1 r n

/-- The block of the instance weights at point `t`. -/
theorem wt_block (c : Dev nD) (t : Fin cfg0.N) (p : Fin 32) (n : Fin 128) :
    iblk m c 1 t (ix2 p n)
      = Cert.Pool.weight (m ((c : Thread nD τ).loc main_arg1)) (bag (t.val / 4) (div4_lt t) p) (inst (t.val % 4) (mod4_lt t) n) := by
  rw [← V_weights m c]
  show V m c main_v6 (((cfg0.win 1).blk t).view.emb (ix2 p n)) = V m c main_v6 _
  refine congrArg (V m c main_v6) (funext fun a => Fin.ext ?_)
  obtain ⟨-, -, -, h3, h4, -⟩ := idx_facts t
  match a with
  | ⟨0, _⟩ => show win0_1.index t (0 : Fin 2) * 32 + 1 * p.val = 32 * (t.val / 4) + p.val; rw [h3]; omega
  | ⟨1, _⟩ => show win0_1.index t (1 : Fin 2) * 128 + 1 * n.val = 128 * (t.val % 4) + n.val; rw [h4]; omega

end Cert.KernelIdeal.Pool

end
-- ==== Proof.PoolValue.lean ====
/-
  The kernel's result: the pooled feature, then the bag-level head.

  Over a run of four grid points (one bag tile, its four instance tiles) the running sums start at zero and take one
  tile's contribution per point, so after the run's last point they hold `0 +` the four contributions, added in point
  order; that point copies them into the output block, the only block the pipeline writes back for the bag tile. A
  tile's contribution to bag `p` is a sum over its 128 instances, so the four together are the sum over the bag's 512
  instances, band by band (`Cert.Pool.four_bands`): the pooled feature. The eight bag tiles' output blocks are the
  eight row bands of the [256, 256] result array, so the array ends holding the pooled feature everywhere, and the host
  lines after the region — divide each bag's row by the bag's length, multiply by the head's matrix, add its bias —
  act on it.
-/
import proofs.«166832_j6536940225208_1_alg».proof.Proof.Gen.KernelIdeal.Frame
import proofs.«166832_j6536940225208_1_alg».proof.Proof.PoolSpec
import proofs.«166832_j6536940225208_1_alg».proof.Proof.PoolPayload
import proofs.«166832_j6536940225208_1_alg».proof.Proof.PoolPieces
import proofs.«166832_j6536940225208_1_alg».proof.Proof.PoolBlocks
import Idealize.ShloMosaic.Lib.Pipeline.Value
import Idealize.ShloMosaic.Lib.StableHlo.Run
import Idealize.ShloMosaic.Lib.ValueIdx

noncomputable section

namespace Cert.KernelIdeal.Pool

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The running sums, point by point -/

/-- The body's update of the running sums at point `n`: over that point's blocks. -/
def upd (c : Dev nD) (n : ℕ) (h : n < cfg0.N) (acc : Vec Ideal S32x256 .f32) : Vec Ideal S32x256 .f32 :=
  k0_pay2 (iblk m c 0 ⟨n, h⟩) (iblk m c 2 ⟨n, h⟩) (iblk m c 3 ⟨n, h⟩) (iblk m c 1 ⟨n, h⟩) acc

set_option maxHeartbeats 1000000 in
/-- At the first point of a run the sums are the update of zero. -/
theorem sums_reset (c : Dev nD) (n : ℕ) (h : n < cfg0.N) (h0 : n % 4 = 0) :
    (outsAt0 m c n h).2 = upd m c n h (k0_pay1 (F := Ideal)) := by
  have h1 : ¬n % 4 = 3 := by omega
  rw [outsAt0_A m c ⟨n, h⟩ h0 h1]
  exact sums_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

set_option maxHeartbeats 1000000 in
/-- At a middle point the sums are the update of what the point before left. -/
theorem sums_mid (c : Dev nD) (t : Fin cfg0.N) (h0 : ¬t.val % 4 = 0) (h1 : ¬t.val % 4 = 3) :
    (outsAt0 m c t.val t.isLt).2 = upd m c t.val t.isLt (outsAt0 m c (t.val - 1) (Nat.lt_of_le_of_lt (Nat.sub_le _ _) t.isLt)).2 := by
  rw [outsAt0_B m c t h0 h1]
  exact sums_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (iblk m c 3 t)
    (outsAt0 m c (t.val - 1) (Nat.lt_of_le_of_lt (Nat.sub_le _ _) t.isLt)).2

set_option maxHeartbeats 1000000 in
/-- At the last point of a run the sums are the update of what the point before left. -/
theorem sums_last (c : Dev nD) (t : Fin cfg0.N) (h0 : ¬t.val % 4 = 0) (h3 : t.val % 4 = 3) :
    (outsAt0 m c t.val t.isLt).2 = upd m c t.val t.isLt (outsAt0 m c (t.val - 1) (Nat.lt_of_le_of_lt (Nat.sub_le _ _) t.isLt)).2 := by
  rw [outsAt0_C m c t h0 h3]
  exact sums_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t)
    (outsAt0 m c (t.val - 1) (Nat.lt_of_le_of_lt (Nat.sub_le _ _) t.isLt)).2

set_option maxHeartbeats 1000000 in
/-- At the last point of a run the output block holds the update of what the point before left in the sums. -/
theorem out_last (c : Dev nD) (t : Fin cfg0.N) (h0 : ¬t.val % 4 = 0) (h3 : t.val % 4 = 3) :
    (outsAt0 m c t.val t.isLt).1 = upd m c t.val t.isLt (outsAt0 m c (t.val - 1) (Nat.lt_of_le_of_lt (Nat.sub_le _ _) t.isLt)).2 := by
  rw [outsAt0_C m c t h0 h3]
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t)
    (outsAt0 m c (t.val - 1) (Nat.lt_of_le_of_lt (Nat.sub_le _ _) t.isLt)).2

/-- At every point but a run's first the sums are the update of what the point before left. -/
theorem sums_step (c : Dev nD) (n : ℕ) (h : n + 1 < cfg0.N) (h0 : ¬(n + 1) % 4 = 0) :
    (outsAt0 m c (n + 1) h).2 = upd m c (n + 1) h (outsAt0 m c n (Nat.lt_of_succ_lt h)).2 := by
  by_cases h1 : (n + 1) % 4 = 3
  · exact sums_last m c ⟨n + 1, h⟩ h0 h1
  · exact sums_mid m c ⟨n + 1, h⟩ h0 h1

/-- At the last point of a run the output block holds the same as the sums. -/
theorem out_eq_sums (c : Dev nD) (t : Fin cfg0.N) (h3 : t.val % 4 = 3) :
    (outsAt0 m c t.val t.isLt).1 = (outsAt0 m c t.val t.isLt).2 :=
  have h0 : ¬t.val % 4 = 0 := by omega
  (out_last m c t h0 h3).trans (sums_last m c t h0 h3).symm

/-- So the sums after point `t` are the fold over the run `4 (t / 4) … t`: reset, then stepped. -/
theorem sums_eq_fold (c : Dev nD) (t : ℕ) (ht : t < cfg0.N) (h' : 4 * (t / 4) + t % 4 < cfg0.N) :
    (outsAt0 m c t ht).2
      = Pipeline.accAt (fun n h => upd m c n h (k0_pay1 (F := Ideal))) (fun n h acc => upd m c n h acc) (4 * (t / 4)) (t % 4) h' :=
  Pipeline.eq_accAt_of_mod (fun n h => (outsAt0 m c n h).2) 4 (fun n h => upd m c n h (k0_pay1 (F := Ideal)))
    (fun n h acc => upd m c n h acc) (fun n h h0 => sums_reset m c n h h0) (fun n h h0 => sums_step m c n h h0)
    (by decide) t ht h'

/-! ## One point's contribution, and the fold as a sum -/

/-- Point `n`'s contribution to the running sums (nothing past the grid). -/
def addend (c : Dev nD) (n : ℕ) (y : S32x256.Idx) : EReal :=
  if h : n < cfg0.N then tileSum (iblk m c 0 ⟨n, h⟩) (iblk m c 2 ⟨n, h⟩) (iblk m c 3 ⟨n, h⟩) (iblk m c 1 ⟨n, h⟩) (y 0) (y 1)
  else 0

/-- The update adds the point's contribution. -/
theorem upd_apply (c : Dev nD) (n : ℕ) (h : n < cfg0.N) (acc : Vec Ideal S32x256 .f32) (y : S32x256.Idx) :
    upd m c n h acc y = acc y + addend m c n y := by
  obtain ⟨p, d, rfl⟩ : ∃ (p : Fin 32) (d : Fin 256), y = ix2 p d := ⟨y 0, y 1, eq_ix2 y⟩
  unfold upd addend
  rw [dif_pos h]
  exact pay2_apply (iblk m c 0 ⟨n, h⟩) (iblk m c 2 ⟨n, h⟩) (iblk m c 3 ⟨n, h⟩) (iblk m c 1 ⟨n, h⟩) acc p d

/-- The fold over a run from `4 q`, after `j ≤ 3` further points, is the sum of the contributions of its points. -/
theorem fold_apply (c : Dev nD) (q j : ℕ) (hj : j ≤ 3) (h : 4 * q + j < cfg0.N) (y : S32x256.Idx) :
    Pipeline.accAt (fun n h => upd m c n h (k0_pay1 (F := Ideal))) (fun n h acc => upd m c n h acc) (4 * q) j h y
      = 0 + ∑ s ∈ Finset.range (j + 1), addend m c (4 * q + s) y :=
  Pipeline.accAt_add_apply (fun n h => upd m c n h (k0_pay1 (F := Ideal))) (fun n h acc => upd m c n h acc) (fun _ => (0 : EReal))
    (addend m c) (4 * q) 3
    (fun hb i => (upd_apply m c (4 * q) hb (k0_pay1 (F := Ideal)) i).trans (congrArg (· + addend m c (4 * q) i) (pay1_apply i)))
    (fun n hn acc i _ _ => upd_apply m c n hn acc i) j hj h y

/-- A point's contribution, over the launched arrays: band `s` of the bag's 512 weighted features. -/
theorem addend_eq (c : Dev nD) (q : ℕ) (hq : q < 8) (s : ℕ) (hs : s < 4) (p : Fin 32) (d : Fin 256) :
    addend m c (4 * q + s) (ix2 p d)
      = ∑ n : Fin 128, Cert.Pool.term (m ((c : Thread nD τ).loc main_arg0)) (m ((c : Thread nD τ).loc main_arg2)) (m ((c : Thread nD τ).loc main_arg3)) (m ((c : Thread nD τ).loc main_arg1)) (bag q hq p) d (128 * s + n.val) := by
  have hN : 4 * q + s < cfg0.N := by rw [show cfg0.N = 32 from N_0]; omega
  unfold addend
  rw [dif_pos hN]
  unfold tileSum
  refine Finset.sum_congr rfl fun n _ => ?_
  have hk : 128 * s + n.val < 512 := by have := n.isLt; omega
  unfold Cert.Pool.term
  rw [dif_pos hk]
  have eb : bag ((⟨4 * q + s, hN⟩ : Fin cfg0.N).val / 4) (div4_lt ⟨4 * q + s, hN⟩) p = bag q hq p :=
    Fin.ext (by show 32 * ((4 * q + s) / 4) + p.val = 32 * q + p.val; omega)
  have ei : inst ((⟨4 * q + s, hN⟩ : Fin cfg0.N).val % 4) (mod4_lt ⟨4 * q + s, hN⟩) n = ⟨128 * s + n.val, hk⟩ :=
    Fin.ext (by show 128 * ((4 * q + s) % 4) + n.val = 128 * s + n.val; omega)
  unfold Cert.Pool.feat
  refine congrArg₂ (· * ·) (congrArg₂ max (congrArg₂ (· + ·) (Finset.sum_congr rfl fun k _ => ?_) ?_) rfl) ?_
  · rw [x_block m c ⟨4 * q + s, hN⟩ p n k, w_block m c ⟨4 * q + s, hN⟩ k d, eb, ei]
  · exact b_block m c ⟨4 * q + s, hN⟩ d
  · rw [wt_block m c ⟨4 * q + s, hN⟩ p n, eb, ei]

/-! ## The result array -/

/-- The pooled feature of the launched arrays, as contents of the result array. -/
abbrev G (c : Dev nD) : S256x256.Idx → EReal :=
  Cert.Pool.pooled (m ((c : Thread nD τ).loc main_arg0)) (m ((c : Thread nD τ).loc main_arg2)) (m ((c : Thread nD τ).loc main_arg3)) (Cert.Pool.weights (m ((c : Thread nD τ).loc main_arg1)))

/-- The output block after the last point of bag tile `t / 4`'s run, at `(p, d)`: the pooled feature of bag
    `32 (t / 4) + p` at unit `d`. -/
theorem out_apply (c : Dev nD) (t : Fin cfg0.N) (h3 : t.val % 4 = 3) (p : Fin 32) (d : Fin 256) :
    (outsAt0 m c t.val t.isLt).1 (ix2 p d) = G m c (ix2 (bag (t.val / 4) (div4_lt t) p) d) := by
  have hN : cfg0.N = 32 := N_0
  have ht := t.isLt
  have h' : 4 * (t.val / 4) + t.val % 4 < cfg0.N := by omega
  have hq : t.val / 4 < 8 := div4_lt t
  rw [out_eq_sums m c t h3, sums_eq_fold m c t.val t.isLt h',
    fold_apply m c (t.val / 4) (t.val % 4) (by omega) h' (ix2 p d), h3, zero_add]
  show ∑ s ∈ Finset.range 4, addend m c (4 * (t.val / 4) + s) (ix2 p d) = _
  rw [Finset.sum_congr rfl fun s hs => addend_eq m c (t.val / 4) hq s (Finset.mem_range.mp hs) p d,
    Cert.Pool.four_bands (Cert.Pool.term (m ((c : Thread nD τ).loc main_arg0)) (m ((c : Thread nD τ).loc main_arg2)) (m ((c : Thread nD τ).loc main_arg3)) (m ((c : Thread nD τ).loc main_arg1)) (bag (t.val / 4) hq p) d)]
  unfold G Cert.Pool.pooled
  refine Finset.sum_congr rfl fun n _ => ?_
  unfold Cert.Pool.term
  rw [dif_pos n.isLt]
  rfl

/-- An index of the result array is in point `t`'s output block iff each coordinate is in the block's range. -/
theorem mem_blk (t : Fin cfg0.N) (i : S256x256.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v8).slice (win0_4.rect t)).set ↔ _
  rw [View.set_slice_whole, Rect.mem_set_unit]
  exact Iff.rfl

/-- Where an element of point `t`'s output block sits in the result array. -/
theorem emb_out (t : Fin cfg0.N) (p : Fin 32) (d : Fin 256) :
    (((cfg0.win 4).blk t).view.emb (ix2 p d) : S256x256.Idx) = ix2 (bag (t.val / 4) (div4_lt t) p) d := by
  obtain ⟨-, -, -, -, -, -, -, -, h8, h9⟩ := idx_facts t
  funext a
  apply Fin.ext
  match a with
  | ⟨0, _⟩ => show win0_4.index t (0 : Fin 2) * 32 + 1 * p.val = 32 * (t.val / 4) + p.val; rw [h8]; omega
  | ⟨1, _⟩ => show win0_4.index t (1 : Fin 2) * 256 + 1 * d.val = d.val; rw [h9]; omega

/-- The output block after a run's last point, entry by entry, is the pooled feature where the block sits. -/
theorem flushed_apply (c : Dev nD) (t : Fin cfg0.N) (h3 : t.val % 4 = 3) (y : S32x256.Idx) :
    (outsAt0 m c t.val t.isLt).1 y = G m c (((cfg0.win 4).blk t).view.emb y) := by
  obtain ⟨p, d, rfl⟩ : ∃ (p : Fin 32) (d : Fin 256), y = ix2 p d := ⟨y 0, y 1, eq_ix2 y⟩
  rw [emb_out t p d]
  exact out_apply m c t h3 p d

/-- What a point writes back is its block of the pooled feature. -/
theorem flushed_eq (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  show (cfg0.win 4).cut (grid0.coords t) ((dats m 0 c).after 4 t) = _
  rw [after0_4]
  funext y
  exact flushed_apply m c t h3 y

/-- The eight bag tiles' output blocks are the eight row bands of the result array: every index is in the block written
    back after the last point of its bag tile's run. -/
theorem cover (i : S256x256.Idx) :
    ∃ t : Fin cfg0.N, (cfg0.win 4).flush t = true ∧ i ∈ ((cfg0.win 4).blk t).view.set := by
  have hN : cfg0.N = 32 := N_0
  have h0 : (i 0).val < 256 := (i 0).isLt
  have h1 : (i 1).val < 256 := (i 1).isLt
  refine ⟨⟨4 * ((i 0).val / 32) + 3, by omega⟩, (flush0_4 _).mpr (by show (4 * ((i 0).val / 32) + 3) % 4 = 3; omega), ?_⟩
  rw [mem_blk]
  obtain ⟨-, -, -, -, -, -, -, -, h8, h9⟩ := idx_facts ⟨4 * ((i 0).val / 32) + 3, by omega⟩
  intro a
  match a with
  | ⟨0, _⟩ =>
    show win0_4.index _ (0 : Fin 2) * 32 ≤ (i 0).val ∧ (i 0).val < win0_4.index _ (0 : Fin 2) * 32 + 32
    rw [h8]
    show (4 * ((i 0).val / 32) + 3) / 4 * 32 ≤ (i 0).val ∧ (i 0).val < (4 * ((i 0).val / 32) + 3) / 4 * 32 + 32
    omega
  | ⟨1, _⟩ =>
    show win0_4.index _ (1 : Fin 2) * 256 ≤ (i 1).val ∧ (i 1).val < win0_4.index _ (1 : Fin 2) * 256 + 256
    rw [h9]
    omega

/-- The result array of the region ends holding the pooled feature. -/
theorem final (c : Dev nD) : (dats m 0 c).arrAt 4 cfg0.N = G m c :=
  (dats m 0 c).arrAt_eq_of_cover 4 (G m c) (fun t hf => flushed_eq m c t hf) cover

/-! ## The host lines after the region, and the run -/

/-- The bag-level head: each bag's pooled row divided by the bag's length (as a float), times the head's matrix, plus
    its bias. -/
def head (s : FVec Ideal S256x256 .f32) (len : IVec S256 32) (w2 : FVec Ideal S256x1 .f32) (b2 : FVec Ideal S1 .f32) :
    FVec Ideal S256x1 .f32 :=
  addf
    (Host.dotGeneral (F := Ideal) dot_S256x256_S256x1_S256x1_1_0_0_1_n_n none
      (Host.divf (F := Ideal) s
        (broadcastInDim S256x256 ![0, 1] Facts₀.bcast_S256x1_S256x256_0_1
          (sitofp (F := Ideal) .f32 (broadcastInDim S256x1 ![0] Facts₀.bcast_S256_S256x1_0 len))))
      w2)
    (broadcastInDim S256x1 ![0, 1] Facts₀.bcast_S1x1_S256x1_0_1 (broadcastInDim S1x1 ![1] Facts₀.bcast_S1_S1x1_1 b2))

/-- What the lines after the region leave in the program's result: the head of the pooled feature. -/
theorem result_eq (c : Dev nD) :
    Pipeline.afterTail₀ cfgs (dats m) 0 (V0 m) [hostOps1] c main_v16
      = head (G m c) (m ((c : Thread nD τ).loc main_arg1)) (m ((c : Thread nD τ).loc main_arg4)) (m ((c : Thread nD τ).loc main_arg5)) := by
  unfold Pipeline.afterTail₀
  show StableHlo.after hostOps1 _ (Proc.devRef .tc main_v16) = _
  after_results
  have e8 : Pipeline.withArrays (cfgs 0).spec c (V0 m c) (fun w => (dats m 0 c).arrAt w (cfgs 0).N) (Proc.devRef .tc main_v8) = G m c :=
    (Pipeline.withArrays_arr spec0 launch0.win.arr_inj c _ _ 4).trans (final m c)
  have e1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  have e4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans
      (V_main_arg4 m c)
  have e5 : Pipeline.withArrays (cfgs 0).spec c (V0 m c) (fun w => (dats m 0 c).arrAt w (cfgs 0).N) (Proc.devRef .tc main_arg5) = m ((c : Thread nD τ).loc main_arg5) :=
    (Pipeline.withArrays_of_ne _ c (V0 m c) _ main_arg5 (by exact (by decide : ∀ w, Pipeline.arrRef spec0 w ≠ main_arg5))).trans
      (V_main_arg5 m c)
  rw [e8, e1, e4, e5]
  rfl

/-- The run, read: the program's result at the head of the pooled feature, the arguments unchanged. -/
theorem run : θ_run defs (onTc (τ := τ) (main (F := Ideal))) ⟨m, fun _ => 0, ρ⟩ fun r => ∀ c : Dev nD,
      r.2.mem ((c.tc : Thread nD τ).loc main_v16) = head (G m c) (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v16 (Pipeline.mem_restRefs_of main_v16 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Pool

end
-- ==== Proof.PoolRef.lean ====
/-
  The reference's pooled feature is the same function of the arguments.

  The reference multiplies all 256 × 512 instance rows by the weight matrix at once, adds the bias along the last axis,
  rectifies, multiplies each instance's row by the instance's weight — the comparison of its position with the bag's
  length, as `0` or `1`, given a trailing unit axis and repeated along it — and sums over the 512 instances of each
  bag from zero. Read at `(r, d)`, one operation at a time, that is `0 + ∑ n, feat (r, n, d) · weight (r, n)`.
-/
import proofs.«166832_j6536940225208_1_alg».proof.Proof.Gen.ReferenceIdeal.Read
import proofs.«166832_j6536940225208_1_alg».proof.Proof.PoolSpec
import Idealize.ShloMosaic.Lib.ValueIdx
import Idealize.ShloMosaic.PureOps.Ideal.Laws

noncomputable section

namespace Cert.ReferenceIdeal.Pool

open Idealize.ShloMosaic Idealize.ShloMosaic.ValueIdx Cert.ReferenceIdeal Cert.ReferenceIdeal.Read

/-- The rectified affine feature, as the reference computes it, at `(r, n, d)`. -/
theorem feat_apply (x0 : (⟨S256x512x256, .f32⟩ : BufTy).Contents (Elt Ideal)) (x2 : (⟨S256x256, .f32⟩ : BufTy).Contents (Elt Ideal))
    (x3 : (⟨S256, .f32⟩ : BufTy).Contents (Elt Ideal)) (r : Fin 256) (n : Fin 512) (d : Fin 256) :
    val_main_v4 (F := Ideal) x0 x2 x3 (ix3 r n d) = Cert.Pool.feat x0 x2 x3 r n d := by
  have el : ∀ k : Fin 256, lidx_main_v0 (ix3 r n d) k = ix3 r n k := fun k => funext fun a => Fin.ext (by
    match a with | ⟨0, _⟩ => rfl | ⟨1, _⟩ => rfl | ⟨2, _⟩ => rfl)
  have er : ∀ k : Fin 256, ridx_main_v0 (ix3 r n d) k = ix2 k d := fun k => funext fun a => Fin.ext (by
    match a with | ⟨0, _⟩ => rfl | ⟨1, _⟩ => rfl)
  have eb : idx_main_v1 (idx_main_v2 (ix3 r n d)) = ix1 d := funext fun a => Fin.ext (by
    match a with | ⟨0, _⟩ => rfl)
  rw [val_main_v4_apply, val_main_v3_apply, val_main_v0_apply, val_main_v2_apply, val_main_v1_apply,
    val_main_call0_v0_apply, val_main_call0_cst_apply, eb]
  unfold Cert.Pool.feat
  refine congrArg₂ max (congrArg₂ (· + ·) (Finset.sum_congr rfl fun k _ => ?_) rfl) rfl
  rw [el k, er k]

/-- The instance weight, as the reference computes it, at `(r, n, d)`. -/
theorem weight_apply (x1 : (⟨S256, .i32⟩ : BufTy).Contents (Elt Ideal)) (r : Fin 256) (n : Fin 512) (d : Fin 256) :
    val_main_v13 (F := Ideal) x1 (ix3 r n d) = Cert.Pool.weights x1 (ix2 r n) := by
  have ei : idx_main_v7 (idx_main_v9 (idx_main_v11 (idx_main_v13 (ix3 r n d)))) = ix1 r := funext fun a => Fin.ext (by
    match a with | ⟨0, _⟩ => rfl)
  rw [val_main_v13_apply, val_main_v12_apply, val_main_v11_apply, val_main_v10_apply, val_main_v8_apply,
    val_main_v6_apply, val_main_v5_apply, val_main_v9_apply, val_main_v7_apply, ei]
  rfl

/-- The reference's sum over the instances is the pooled feature. -/
theorem stage_eq (x0 : (⟨S256x512x256, .f32⟩ : BufTy).Contents (Elt Ideal)) (x1 : (⟨S256, .i32⟩ : BufTy).Contents (Elt Ideal))
    (x2 : (⟨S256x256, .f32⟩ : BufTy).Contents (Elt Ideal)) (x3 : (⟨S256, .f32⟩ : BufTy).Contents (Elt Ideal)) :
    val_main_v15 (F := Ideal) x0 x1 x2 x3 = Cert.Pool.pooled x0 x2 x3 (Cert.Pool.weights x1) := by
  funext i
  obtain ⟨r, d, rfl⟩ : ∃ (r : Fin 256) (d : Fin 256), i = ix2 r d := ⟨i 0, i 1, eq_ix2 i⟩
  have e15 : ∀ n : Fin 512, idx_main_v15 (ix2 r d) n = ix3 r n d := fun n => funext fun a => Fin.ext (by
    match a with | ⟨0, _⟩ => rfl | ⟨1, _⟩ => rfl | ⟨2, _⟩ => rfl)
  rw [val_main_v15_apply]
  show Ideal.ofBits .f32 0x00000000#32 + _ = _
  rw [Ideal.ofBits_zero_f32, zero_add]
  unfold Cert.Pool.pooled
  refine Finset.sum_congr rfl fun n _ => ?_
  rw [val_main_v14_apply, e15 n, feat_apply, weight_apply]
  rfl

end Cert.ReferenceIdeal.Pool

end
-- ==== Proof.lean ====
/-
  Bag pooling: a kernel that accumulates each bag's masked, rectified instance features tile by tile, against the
  reference that sums them in one pass; both then apply the same bag-level head.

  For 256 bags of up to 512 instances with 256 inputs each, both programs compute, for bag `r` and hidden unit `d`,
  `pooled (r, d) = ∑ n < 512, max (∑ k, x (r, n, k) · W1 (k, d) + b1 d, 0) · [n <ₛ len r]`
  and return `(pooled (r, ·) / float (len r)) · W2 + b2`. The kernel walks a grid of 8 bag tiles × 4 instance tiles,
  keeps a running sum per bag tile in scratch memory (zeroed at the first instance tile, copied out after the last),
  and leaves the division and the head to the host lines after it; the reference is host lines only. At the ideal
  values the four partial sums added in order onto zero are the one sum over 512 instances — addition on the extended
  reals is commutative and associative with no finiteness asked — and the host lines after the pooled feature are the
  same operations on both sides, so the finiteness of the inputs is never used.

  The three frames: the kernel's two are the generated frame certificates; the reference's is its generated run with
  the result dropped. The ideal pass rewrote nothing, so the idealization claim is trivial. The equivalence: the
  kernel's run ends at the head of the pooled feature (Proof/PoolValue.lean), the reference's run at its own
  composed term, whose sum stage is the pooled feature (Proof/PoolRef.lean) and whose later stages are the head.
-/
import proofs.«166832_j6536940225208_1_alg».proof.Defs
import proofs.«166832_j6536940225208_1_alg».proof.Proof.Gen.Kernel
import proofs.«166832_j6536940225208_1_alg».proof.Proof.Gen.Kernel.Skeleton
import proofs.«166832_j6536940225208_1_alg».proof.Proof.Gen.Kernel.Launch
import proofs.«166832_j6536940225208_1_alg».proof.Proof.Gen.Kernel.Points
import proofs.«166832_j6536940225208_1_alg».proof.Proof.Gen.Kernel.Frame
import proofs.«166832_j6536940225208_1_alg».proof.Proof.Gen.KernelIdeal
import proofs.«166832_j6536940225208_1_alg».proof.Proof.Gen.KernelIdeal.Skeleton
import proofs.«166832_j6536940225208_1_alg».proof.Proof.Gen.KernelIdeal.Launch
import proofs.«166832_j6536940225208_1_alg».proof.Proof.Gen.KernelIdeal.Points
import proofs.«166832_j6536940225208_1_alg».proof.Proof.Gen.KernelIdeal.Frame
import proofs.«166832_j6536940225208_1_alg».proof.Proof.Gen.ReferenceIdeal
import proofs.«166832_j6536940225208_1_alg».proof.Proof.Gen.ReferenceIdeal.Run
import proofs.«166832_j6536940225208_1_alg».proof.Proof.Gen.ReferenceIdeal.Read
import proofs.«166832_j6536940225208_1_alg».proof.Proof.Gen.Pre_finite_inputs
import proofs.«166832_j6536940225208_1_alg».proof.Proof.PoolSpec
import proofs.«166832_j6536940225208_1_alg».proof.Proof.PoolValue
import proofs.«166832_j6536940225208_1_alg».proof.Proof.PoolRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's stages after its sum are the kernel program's host lines after the region: the same division by
    the bag's length, the same product with the head's matrix, the same bias, operation for operation. -/
theorem ref_head (x0 : (⟨Cert.ReferenceIdeal.S256x512x256, .f32⟩ : BufTy).Contents (Elt Ideal))
    (x1 : (⟨Cert.ReferenceIdeal.S256, .i32⟩ : BufTy).Contents (Elt Ideal))
    (x2 : (⟨Cert.ReferenceIdeal.S256x256, .f32⟩ : BufTy).Contents (Elt Ideal))
    (x3 : (⟨Cert.ReferenceIdeal.S256, .f32⟩ : BufTy).Contents (Elt Ideal))
    (x4 : (⟨Cert.ReferenceIdeal.S256x1, .f32⟩ : BufTy).Contents (Elt Ideal))
    (x5 : (⟨Cert.ReferenceIdeal.S1, .f32⟩ : BufTy).Contents (Elt Ideal)) :
    Cert.ReferenceIdeal.Read.val_main_v23 (F := Ideal) x0 x1 x2 x3 x4 x5
      = Cert.KernelIdeal.Pool.head (Cert.ReferenceIdeal.Read.val_main_v15 (F := Ideal) x0 x1 x2 x3) x1 x4 x5 := rfl

/-- At the ideal values, from memories agreeing on the arguments, both programs end at the head of the pooled feature
    of the arguments. -/
theorem algebraic : Cert.algebraic_KernelIdeal_ReferenceIdeal := by
  intro m ρ m' ρ' _ hagree
  refine ⟨fun c => Cert.KernelIdeal.Pool.head (Cert.KernelIdeal.Pool.G m c) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, ref_head, Cert.ReferenceIdeal.Pool.stage_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
